-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64 : Shape := ⟨3, ![32, 512, 64]⟩
abbrev S128x64x64 : Shape := ⟨3, ![128, 64, 64]⟩
abbrev S_ : Shape := ⟨0, ![]⟩

class Facts : Prop where
  bcast_S_S32x512x64 : S_.BroadcastsInDim S32x512x64 (![] : Fin 0 → Fin S32x512x64.rank)
  reducesTo_S32x512x64_S_d0_1_2 : S32x512x64.ReducesTo [0, 1, 2] S_
  h_S_ : 0 < S_.numel
  bcast_S_S128x64x64 : S_.BroadcastsInDim S128x64x64 (![] : Fin 0 → Fin S128x64x64.rank)
  reducesTo_S128x64x64_S_d0_1_2 : S128x64x64.ReducesTo [0, 1, 2] S_

variable [Facts]

def fn {F : FTy → Type} [FloatOps F] (main_arg0 : FVec F S32x512x64 .f32) (main_arg1 : FVec F S128x64x64 .f32) : IVec S_ 1 :=
  let main_v0 : FVec F S32x512x64 .f32 := Host.absf main_arg0
  let main_cst : FVec F S_ .f32 := constant S_ .f32 0x7F800000#32
  let main_v1 : FVec F S32x512x64 .f32 := broadcastInDim S32x512x64 ![] bcast_S_S32x512x64 main_cst
  let main_v2 : IVec S32x512x64 1 := cmpf .olt main_v0 main_v1
  let main_c : IVec S_ 1 := constantI S_ 1 1#1
  let main_v3 : IVec S_ 1 := (fun x v => Host.reduce IntOp.andi x v reducesTo_S32x512x64_S_d0_1_2 h_S_) main_v2 main_c
  let main_v4 : FVec F S128x64x64 .f32 := Host.absf main_arg1
  let main_cst_0 : FVec F S_ .f32 := constant S_ .f32 0x7F800000#32
  let main_v5 : FVec F S128x64x64 .f32 := broadcastInDim S128x64x64 ![] bcast_S_S128x64x64 main_cst_0
  let main_v6 : IVec S128x64x64 1 := cmpf .olt main_v4 main_v5
  let main_c_1 : IVec S_ 1 := constantI S_ 1 1#1
  let main_v7 : IVec S_ 1 := (fun x v => Host.reduce IntOp.andi x v reducesTo_S128x64x64_S_d0_1_2 h_S_) main_v6 main_c_1
  let main_v8 : IVec S_ 1 := andi main_v3 main_v7
  main_v8
-- ==== Kernel.lean ====
abbrev S32x512x64 : Shape := ⟨3, ![32, 512, 64]⟩
abbrev S128x64x64 : Shape := ⟨3, ![128, 64, 64]⟩
abbrev S32x128x64 : Shape := ⟨3, ![32, 128, 64]⟩
abbrev S1x512x64 : Shape := ⟨3, ![1, 512, 64]⟩
abbrev S64x64x64 : Shape := ⟨3, ![64, 64, 64]⟩
abbrev S1x64x64 : Shape := ⟨3, ![1, 64, 64]⟩
abbrev S512x64 : Shape := ⟨2, ![512, 64]⟩
abbrev S4096x64 : Shape := ⟨2, ![4096, 64]⟩
abbrev S4096x512 : Shape := ⟨2, ![4096, 512]⟩
abbrev S64x64x512 : Shape := ⟨3, ![64, 64, 512]⟩
abbrev S64x64 : Shape := ⟨2, ![64, 64]⟩
abbrev S64x64x1 : Shape := ⟨3, ![64, 64, 1]⟩
abbrev S64x1 : Shape := ⟨2, ![64, 1]⟩
abbrev S64x1x1 : Shape := ⟨3, ![64, 1, 1]⟩
abbrev S64x512 : Shape := ⟨2, ![64, 512]⟩
abbrev S64 : Shape := ⟨1, ![64]⟩
abbrev S64x1x512 : Shape := ⟨3, ![64, 1, 512]⟩

abbrev nBuf : Space → Nat
  | .hbm => 5
  | .vmem => 6
  | .smem => 0
  | _ => 0

abbrev bufTy : (tb : Table) → Fin (tcTables nBuf tb) → BufTy
  | .hbm, ⟨0, _⟩ => ⟨S32x512x64, .f32⟩
  | .hbm, ⟨1, _⟩ => ⟨S128x64x64, .f32⟩
  | .hbm, ⟨2, _⟩ => ⟨S32x512x64, .bf16⟩
  | .hbm, ⟨3, _⟩ => ⟨S128x64x64, .bf16⟩
  | .hbm, ⟨4, _⟩ => ⟨S32x128x64, .f32⟩
  | .local _ .vmem, ⟨0, _⟩ => ⟨S1x512x64, .bf16⟩
  | .local _ .vmem, ⟨1, _⟩ => ⟨S1x512x64, .bf16⟩
  | .local _ .vmem, ⟨2, _⟩ => ⟨S64x64x64, .bf16⟩
  | .local _ .vmem, ⟨3, _⟩ => ⟨S64x64x64, .bf16⟩
  | .local _ .vmem, ⟨4, _⟩ => ⟨S1x64x64, .f32⟩
  | .local _ .vmem, ⟨5, _⟩ => ⟨S1x64x64, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  shapeCasts_S64x64x64_S4096x64 : S64x64x64.ShapeCasts S4096x64
  shapeCasts_S4096x512_S64x64x512 : S4096x512.ShapeCasts S64x64x512
  reduces_S64x64x512_S64x64 : S64x64x512.Reduces [2] S64x64
  shapeCasts_S64x64_S64x64x1 : S64x64.ShapeCasts S64x64x1
  reduces_S64x64x1_S64x1 : S64x64x1.Reduces [1] S64x1
  shapeCasts_S64x1_S64x1x1 : S64x1.ShapeCasts S64x1x1
  broadcasts_S64x1x1_S64x64x1 : S64x1x1.Broadcasts S64x64x1
  broadcasts_S64x64x1_S64x64x512 : S64x64x1.Broadcasts S64x64x512
  reduces_S64x64x512_S64x512 : S64x64x512.Reduces [1] S64x512
  reduces_S64x512_S64 : S64x512.Reduces [1] S64
  shapeCasts_S64_S64x1 : S64.ShapeCasts S64x1
  broadcasts_S64x1_S64x512 : S64x1.Broadcasts S64x512
  shapeCasts_S64x512_S64x1x512 : S64x512.ShapeCasts S64x1x512
  broadcasts_S64x1x512_S64x64x512 : S64x1x512.Broadcasts S64x64x512
  shapeCasts_S64x64x1_S64x64 : S64x64x1.ShapeCasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x512x64.size a
  hwx0_0 : ∀ i : grid0.Coords, EltTy.bits .bf16 = 32 ∨ (Rect.block (s := S32x512x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S128x64x64.size a
  hwx0_1 : ∀ i : grid0.Coords, EltTy.bits .bf16 = 32 ∨ (Rect.block (s := S128x64x64) S64x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S32x128x64.size a
  hwx0_2 : ∀ i : grid0.Coords, EltTy.bits .f32 = 32 ∨ (Rect.block (s := S32x128x64) S1x64x64.size (cc0_transform_2 i) (hinb0_2 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x64 : Shape := ⟨3, ![32, 512, 64]⟩
abbrev S128x64x64 : Shape := ⟨3, ![128, 64, 64]⟩
abbrev S32x512x128x64 : Shape := ⟨4, ![32, 512, 128, 64]⟩
abbrev S32x128x512x64 : Shape := ⟨4, ![32, 128, 512, 64]⟩
abbrev S_ : Shape := ⟨0, ![]⟩
abbrev S32x128x64 : Shape := ⟨3, ![32, 128, 64]⟩
abbrev S32x128x1x64 : Shape := ⟨4, ![32, 128, 1, 64]⟩
abbrev S32x128x1 : Shape := ⟨3, ![32, 128, 1]⟩
abbrev S32x128x1x1 : Shape := ⟨4, ![32, 128, 1, 1]⟩
abbrev S32x128x512 : Shape := ⟨3, ![32, 128, 512]⟩
abbrev S32x128x512x1 : Shape := ⟨4, ![32, 128, 512, 1]⟩

abbrev nBuf : Space → Nat
  | .hbm => 113
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S128x64x64, .f32⟩
  | .hbm, ⟨2, _⟩ => ⟨S32x512x128x64, .f32⟩
  | .hbm, ⟨3, _⟩ => ⟨S32x128x512x64, .f32⟩
  | .hbm, ⟨4, _⟩ => ⟨S_, .f32⟩
  | .hbm, ⟨5, _⟩ => ⟨S32x128x64, .f32⟩
  | .hbm, ⟨6, _⟩ => ⟨S32x128x1x64, .f32⟩
  | .hbm, ⟨7, _⟩ => ⟨S_, .f32⟩
  | .hbm, ⟨8, _⟩ => ⟨S32x128x1x64, .f32⟩
  | .hbm, ⟨9, _⟩ => ⟨S32x128x1x64, .f32⟩
  | .hbm, ⟨10, _⟩ => ⟨S32x128x1x64, .f32⟩
  | .hbm, ⟨11, _⟩ => ⟨S_, .f32⟩
  | .hbm, ⟨12, _⟩ => ⟨S32x128x1, .f32⟩
  | .hbm, ⟨13, _⟩ => ⟨S32x128x1x1, .f32⟩
  | .hbm, ⟨14, _⟩ => ⟨S32x128x1x1, .f32⟩
  | .hbm, ⟨15, _⟩ => ⟨S_, .f32⟩
  | .hbm, ⟨16, _⟩ => ⟨S32x128x1x1, .f32⟩
  | .hbm, ⟨17, _⟩ => ⟨S32x128x1x1, .f32⟩
  | .hbm, ⟨18, _⟩ => ⟨S32x128x1x64, .f32⟩
  | .hbm, ⟨19, _⟩ => ⟨S32x128x1x64, .f32⟩
  | .hbm, ⟨20, _⟩ => ⟨S32x128x512x64, .f32⟩
  | .hbm, ⟨21, _⟩ => ⟨S32x128x512x64, .f32⟩
  | .hbm, ⟨22, _⟩ => ⟨S_, .f32⟩
  | .hbm, ⟨23, _⟩ => ⟨S32x128x512, .f32⟩
  | .hbm, ⟨24, _⟩ => ⟨S32x128x512x1, .f32⟩
  | .hbm, ⟨25, _⟩ => ⟨S_, .f32⟩
  | .hbm, ⟨26, _⟩ => ⟨S32x128x1, .f32⟩
  | .hbm, ⟨27, _⟩ => ⟨S_, .f32⟩
  | .hbm, ⟨28, _⟩ => ⟨S32x128x1, .f32⟩
  | .hbm, ⟨29, _⟩ => ⟨S32x128x1, .f32⟩
  | .hbm, ⟨30, _⟩ => ⟨S32x128x1x1, .f32⟩
  | .hbm, ⟨31, _⟩ => ⟨S32x128x512x1, .f32⟩
  | .hbm, ⟨32, _⟩ => ⟨S32x128x512x1, .f32⟩
  | .hbm, ⟨33, _⟩ => ⟨S32x128x512x1, .f32⟩
  | .hbm, ⟨34, _⟩ => ⟨S_, .f32⟩
  | .hbm, ⟨35, _⟩ => ⟨S32x128x1, .f32⟩
  | .hbm, ⟨36, _⟩ => ⟨S32x128x1x1, .f32⟩
  | .hbm, ⟨37, _⟩ => ⟨S32x128x512x1, .f32⟩
  | .hbm, ⟨38, _⟩ => ⟨S32x128x512x1, .f32⟩
  | .hbm, ⟨39, _⟩ => ⟨S32x128x512x64, .f32⟩
  | .hbm, ⟨40, _⟩ => ⟨S32x128x512x64, .f32⟩
  | .hbm, ⟨41, _⟩ => ⟨S_, .f32⟩
  | .hbm, ⟨42, _⟩ => ⟨S32x128x64, .f32⟩
  | .hbm, ⟨43, _⟩ => ⟨S32x128x1x64, .f32⟩
  | .hbm, ⟨44, _⟩ => ⟨S32x128x1x64, .f32⟩
  | .hbm, ⟨45, _⟩ => ⟨S_, .f32⟩
  | .hbm, ⟨46, _⟩ => ⟨S32x128x1, .f32⟩
  | .hbm, ⟨47, _⟩ => ⟨S32x128x1x1, .f32⟩
  | .hbm, ⟨48, _⟩ => ⟨S32x128x1x1, .f32⟩
  | .hbm, ⟨49, _⟩ => ⟨S_, .f32⟩
  | .hbm, ⟨50, _⟩ => ⟨S32x128x1x1, .f32⟩
  | .hbm, ⟨51, _⟩ => ⟨S32x128x1x1, .f32⟩
  | .hbm, ⟨52, _⟩ => ⟨S32x128x1x64, .f32⟩
  | .hbm, ⟨53, _⟩ => ⟨S32x128x1x64, .f32⟩
  | .hbm, ⟨54, _⟩ => ⟨S32x128x512x64, .f32⟩
  | .hbm, ⟨55, _⟩ => ⟨S32x128x512x64, .f32⟩
  | .hbm, ⟨56, _⟩ => ⟨S_, .f32⟩
  | .hbm, ⟨57, _⟩ => ⟨S32x128x512, .f32⟩
  | .hbm, ⟨58, _⟩ => ⟨S32x128x512x1, .f32⟩
  | .hbm, ⟨59, _⟩ => ⟨S_, .f32⟩
  | .hbm, ⟨60, _⟩ => ⟨S32x128x1, .f32⟩
  | .hbm, ⟨61, _⟩ => ⟨S_, .f32⟩
  | .hbm, ⟨62, _⟩ => ⟨S32x128x1, .f32⟩
  | .hbm, ⟨63, _⟩ => ⟨S32x128x1, .f32⟩
  | .hbm, ⟨64, _⟩ => ⟨S32x128x1x1, .f32⟩
  | .hbm, ⟨65, _⟩ => ⟨S32x128x512x1, .f32⟩
  | .hbm, ⟨66, _⟩ => ⟨S32x128x512x1, .f32⟩
  | .hbm, ⟨67, _⟩ => ⟨S32x128x512x1, .f32⟩
  | .hbm, ⟨68, _⟩ => ⟨S_, .f32⟩
  | .hbm, ⟨69, _⟩ => ⟨S32x128x1, .f32⟩
  | .hbm, ⟨70, _⟩ => ⟨S32x128x1x1, .f32⟩
  | .hbm, ⟨71, _⟩ => ⟨S32x128x512x1, .f32⟩
  | .hbm, ⟨72, _⟩ => ⟨S32x128x512x1, .f32⟩
  | .hbm, ⟨73, _⟩ => ⟨S32x128x512x64, .f32⟩
  | .hbm, ⟨74, _⟩ => ⟨S32x128x512x64, .f32⟩
  | .hbm, ⟨75, _⟩ => ⟨S_, .f32⟩
  | .hbm, ⟨76, _⟩ => ⟨S32x128x64, .f32⟩
  | .hbm, ⟨77, _⟩ => ⟨S32x128x1x64, .f32⟩
  | .hbm, ⟨78, _⟩ => ⟨S32x128x1x64, .f32⟩
  | .hbm, ⟨79, _⟩ => ⟨S_, .f32⟩
  | .hbm, ⟨80, _⟩ => ⟨S32x128x1, .f32⟩
  | .hbm, ⟨81, _⟩ => ⟨S32x128x1x1, .f32⟩
  | .hbm, ⟨82, _⟩ => ⟨S32x128x1x1, .f32⟩
  | .hbm, ⟨83, _⟩ => ⟨S_, .f32⟩
  | .hbm, ⟨84, _⟩ => ⟨S32x128x1x1, .f32⟩
  | .hbm, ⟨85, _⟩ => ⟨S32x128x1x1, .f32⟩
  | .hbm, ⟨86, _⟩ => ⟨S32x128x1x64, .f32⟩
  | .hbm, ⟨87, _⟩ => ⟨S32x128x1x64, .f32⟩
  | .hbm, ⟨88, _⟩ => ⟨S32x128x512x64, .f32⟩
  | .hbm, ⟨89, _⟩ => ⟨S32x128x512x64, .f32⟩
  | .hbm, ⟨90, _⟩ => ⟨S_, .f32⟩
  | .hbm, ⟨91, _⟩ => ⟨S32x128x512, .f32⟩
  | .hbm, ⟨92, _⟩ => ⟨S32x128x512x1, .f32⟩
  | .hbm, ⟨93, _⟩ => ⟨S_, .f32⟩
  | .hbm, ⟨94, _⟩ => ⟨S32x128x1, .f32⟩
  | .hbm, ⟨95, _⟩ => ⟨S_, .f32⟩
  | .hbm, ⟨96, _⟩ => ⟨S32x128x1, .f32⟩
  | .hbm, ⟨97, _⟩ => ⟨S32x128x1, .f32⟩
  | .hbm, ⟨98, _⟩ => ⟨S32x128x1x1, .f32⟩
  | .hbm, ⟨99, _⟩ => ⟨S32x128x512x1, .f32⟩
  | .hbm, ⟨100, _⟩ => ⟨S32x128x512x1, .f32⟩
  | .hbm, ⟨101, _⟩ => ⟨S32x128x512x1, .f32⟩
  | .hbm, ⟨102, _⟩ => ⟨S_, .f32⟩
  | .hbm, ⟨103, _⟩ => ⟨S32x128x1, .f32⟩
  | .hbm, ⟨104, _⟩ => ⟨S32x128x1x1, .f32⟩
  | .hbm, ⟨105, _⟩ => ⟨S32x128x512x1, .f32⟩
  | .hbm, ⟨106, _⟩ => ⟨S32x128x512x1, .f32⟩
  | .hbm, ⟨107, _⟩ => ⟨S32x128x512x64, .f32⟩
  | .hbm, ⟨108, _⟩ => ⟨S32x128x512x64, .f32⟩
  | .hbm, ⟨109, _⟩ => ⟨S_, .f32⟩
  | .hbm, ⟨110, _⟩ => ⟨S32x128x64, .f32⟩
  | .hbm, ⟨111, _⟩ => ⟨S32x128x1x64, .f32⟩
  | .hbm, ⟨112, _⟩ => ⟨S32x128x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_14 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_16 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_20 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_21 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]

class Facts₀ : Prop where
  transposes_S32x512x128x64_S32x128x512x64_0_2_1_3 : S32x512x128x64.Transposes [0, 2, 1, 3] S32x128x512x64
  reducesTo_S32x128x512x64_S32x128x64_d2 : S32x128x512x64.ReducesTo [2] S32x128x64
  h_S_ : 0 < S_.numel
  bcast_S32x128x64_S32x128x1x64_0_1_3 : S32x128x64.BroadcastsInDim S32x128x1x64 (![0, 1, 3] : Fin 3 → Fin S32x128x1x64.rank)
  bcast_S_S32x128x1x64 : S_.BroadcastsInDim S32x128x1x64 (![] : Fin 0 → Fin S32x128x1x64.rank)
  reducesTo_S32x128x1x64_S32x128x1_d3 : S32x128x1x64.ReducesTo [3] S32x128x1
  bcast_S32x128x1_S32x128x1x1_0_1_2 : S32x128x1.BroadcastsInDim S32x128x1x1 (![0, 1, 2] : Fin 3 → Fin S32x128x1x1.rank)
  bcast_S_S32x128x1x1 : S_.BroadcastsInDim S32x128x1x1 (![] : Fin 0 → Fin S32x128x1x1.rank)
  bcast_S32x128x1x1_S32x128x1x64_0_1_2_3 : S32x128x1x1.BroadcastsInDim S32x128x1x64 (![0, 1, 2, 3] : Fin 4 → Fin S32x128x1x64.rank)
  bcast_S32x128x1x64_S32x128x512x64_0_1_2_3 : S32x128x1x64.BroadcastsInDim S32x128x512x64 (![0, 1, 2, 3] : Fin 4 → Fin S32x128x512x64.rank)
  reducesTo_S32x128x512x64_S32x128x512_d3 : S32x128x512x64.ReducesTo [3] S32x128x512
  bcast_S32x128x512_S32x128x512x1_0_1_2 : S32x128x512.BroadcastsInDim S32x128x512x1 (![0, 1, 2] : Fin 3 → Fin S32x128x512x1.rank)
  reducesTo_S32x128x512x1_S32x128x1_d2 : S32x128x512x1.ReducesTo [2] S32x128x1
  bcast_S_S32x128x1 : S_.BroadcastsInDim S32x128x1 (![] : Fin 0 → Fin S32x128x1.rank)
  bcast_S32x128x1_S32x128x1x1_0_1_3 : S32x128x1.BroadcastsInDim S32x128x1x1 (![0, 1, 3] : Fin 3 → Fin S32x128x1x1.rank)
  bcast_S32x128x1x1_S32x128x512x1_0_1_2_3 : S32x128x1x1.BroadcastsInDim S32x128x512x1 (![0, 1, 2, 3] : Fin 4 → Fin S32x128x512x1.rank)
  bcast_S32x128x512x1_S32x128x512x64_0_1_2_3 : S32x128x512x1.BroadcastsInDim S32x128x512x64 (![0, 1, 2, 3] : Fin 4 → Fin S32x128x512x64.rank)
  shapeCasts_S32x128x1x64_S32x128x64 : S32x128x1x64.ShapeCasts S32x128x64
  dot_S32x512x64_S128x64x64_S32x512x128x64_2_2_01_01_n_n_wf : DotDims.WF S32x512x64 S128x64x64 S32x512x128x64 [2] [2] [0, 1] [0, 1] [] []

variable [Facts₀]

def dot_S32x512x64_S128x64x64_S32x512x128x64_2_2_01_01_n_n : DotDims S32x512x64 S128x64x64 S32x512x128x64 where
  lhsContracting := [2]
  rhsContracting := [2]
  lhsNonContracting := [0, 1]
  rhsNonContracting := [0, 1]
  lhsBatch := []
  rhsBatch := []
  wf := dot_S32x512x64_S128x64x64_S32x512x128x64_2_2_01_01_n_n_wf

class Facts : Prop extends Facts₀ where

variable [Facts]
-- ==== Proof.Spec.lean ====
/-
  The routing computation, stated once on the extended reals for one (batch, out-capsule) pair.

  For a matrix of priors `P i j` (in-capsule `i` of 512, output coordinate `j` of 64) the result is three rounds of
  "normalise the current vector, score every in-capsule by its inner product with it, take a softmax of the scores
  over the in-capsules, and average the priors with those weights", started from the mean of the priors. Every
  operation is written exactly as both programs compute it at the ideal values: the division is `Ideal.div`, the norm's
  floor is the float word `0x2B8CBCCC`, the softmax subtracts the maximum (folded from `-∞`, the word `0xFF800000`).

  The only place where the two programs spell a step differently is the initial mean: one multiplies the sum by the
  float `2⁻⁹`, the other divides it by the float `512`. On the extended reals these agree at every value, infinite ones
  included (`mean_div`), because dividing by a nonzero real is multiplying by its reciprocal.
-/
import Idealize.ShloMosaic.PureOps.Ideal.Laws
import Idealize.ShloMosaic.Lib.ValueIdx

noncomputable section

open scoped BigOperators

namespace Cert.Routing

open Idealize.ShloMosaic Idealize.ShloMosaic.ValueIdx

/-- The mean of the priors over the in-capsules, as a product with `2⁻⁹`. -/
def mean0 (P : Fin 512 → Fin 64 → EReal) (j : Fin 64) : EReal :=
  (∑ i : Fin 512, P i j) * Ideal.ofBits .f32 0x3B000000#32

/-- The Euclidean norm of a vector of 64 coordinates, floored at the float `1e-12`. -/
def nrm (out : Fin 64 → EReal) : EReal :=
  max (Ideal.sqrt (∑ j : Fin 64, out j * out j)) (Ideal.ofBits .f32 0x2B8CBCCC#32)

/-- In-capsule `i`'s score: the inner product of its prior with the normalised vector. -/
def logit (P : Fin 512 → Fin 64 → EReal) (out : Fin 64 → EReal) (i : Fin 512) : EReal :=
  ∑ j : Fin 64, P i j * Ideal.div (out j) (nrm out)

/-- The largest score (the fold of `max` from `-∞`, once more against `-∞`). -/
def top (lg : Fin 512 → EReal) : EReal :=
  max (Ideal.ofBits .f32 0xFF800000#32)
    ((Finset.univ : Finset (Fin 512)).fold max (Ideal.ofBits .f32 0xFF800000#32) lg)

/-- The exponential of a score less the largest one. -/
def wexp (lg : Fin 512 → EReal) (i : Fin 512) : EReal := Ideal.exp (lg i - top lg)

/-- The priors averaged with weights `e i / ∑ e`. -/
def upd (P : Fin 512 → Fin 64 → EReal) (e : Fin 512 → EReal) (j : Fin 64) : EReal :=
  ∑ i : Fin 512, Ideal.div (e i) (∑ i' : Fin 512, e i') * P i j

/-- One routing round. -/
def step (P : Fin 512 → Fin 64 → EReal) (out : Fin 64 → EReal) : Fin 64 → EReal :=
  upd P (wexp (logit P out))

/-- Three rounds from the mean. -/
def route (P : Fin 512 → Fin 64 → EReal) : Fin 64 → EReal :=
  step P (step P (step P (mean0 P)))

/-- The result at batch `b`, out-capsule `o`, output coordinate `j`, from the input `x : [32, 512, 64]` and the weights
    `w : [128, 64, 64]`: the routing of the priors `P i j = ∑ l, w (o, j, l) · x (b, i, l)`. -/
def Gc (x : (⟨3, ![32, 512, 64]⟩ : Shape).Idx → EReal) (w : (⟨3, ![128, 64, 64]⟩ : Shape).Idx → EReal)
    (b : Fin 32) (o : Fin 128) (j : Fin 64) : EReal :=
  route (fun i j => ∑ l : Fin 64, w (ix3 o j l) * x (ix3 b i l)) j

/-- The whole result array `[32, 128, 64]` as one function of the two argument arrays. -/
def G (x : (⟨3, ![32, 512, 64]⟩ : Shape).Idx → EReal) (w : (⟨3, ![128, 64, 64]⟩ : Shape).Idx → EReal) :
    (⟨3, ![32, 128, 64]⟩ : Shape).Idx → EReal :=
  fun y => Gc x w (y 0) (y 1) (y 2)

theorem G_ix3 (x : (⟨3, ![32, 512, 64]⟩ : Shape).Idx → EReal) (w : (⟨3, ![128, 64, 64]⟩ : Shape).Idx → EReal)
    (b : Fin 32) (o : Fin 128) (j : Fin 64) : G x w (ix3 b o j) = Gc x w b o j := rfl

/-- The float word `0x44000000` is the real 512. -/
theorem ofBits_512 : Ideal.ofBits .f32 0x44000000#32 = ((512 : ℝ) : EReal) := by
  simp [Ideal.ofBits, Ideal.ieee, -EReal.coe_mul]; norm_num

/-- The float word `0x3B000000` is the real 1/512. -/
theorem ofBits_inv512 : Ideal.ofBits .f32 0x3B000000#32 = (((1 : ℝ) / 512 : ℝ) : EReal) := by
  simp [Ideal.ofBits, Ideal.ieee, -EReal.coe_mul]; norm_num

/-- Dividing a sum (started from the float zero) by 512 is multiplying it by `2⁻⁹`, at every extended real. -/
theorem mean_div (s : EReal) :
    Ideal.div (Ideal.ofBits .f32 0x00000000#32 + s) (Ideal.ofBits .f32 0x44000000#32)
      = s * Ideal.ofBits .f32 0x3B000000#32 := by
  rw [Ideal.ofBits_zero_f32, zero_add, ofBits_512, ofBits_inv512]
  exact Ideal.div_coe (by norm_num) s

end Cert.Routing

end
-- ==== Proof.LayK.lean ====
/-
  The kernel's re-layings and reductions read at an index written by coordinates.

  Inside one grid point the priors lie as (out-capsule o of 64, output coordinate j of 64, in-capsule i of 512). Each
  lemma here reads one shape cast, one broadcast or one single-axis reduction of that layout at `ixN` coordinates:
  a shape cast keeps the row-major position, a broadcast reads coordinate 0 on the operand's unit axes, a sum over
  one axis is the sum over that axis's coordinate, and a maximum over one axis the fold of `max` over it.
  The five reductions of this layout carry names of their own (`sumI3`, `sumJ3`, `sumJ1`, `sumI2`, `maxI2`).
-/
import Idealize.ShloMosaic.Lib.Pipeline.Value
import Idealize.ShloMosaic.Lib.ValueIdx
import Idealize.ShloMosaic.PureOps.Ideal.Laws

noncomputable section

open scoped BigOperators

namespace Cert.Routing.LayK

open Idealize.ShloMosaic Idealize.ShloMosaic.ValueIdx

abbrev K3 : Shape := ⟨3, ![64, 64, 512]⟩
abbrev K2 : Shape := ⟨2, ![64, 64]⟩
abbrev K21 : Shape := ⟨3, ![64, 64, 1]⟩
abbrev K11 : Shape := ⟨2, ![64, 1]⟩
abbrev K111 : Shape := ⟨3, ![64, 1, 1]⟩
abbrev KI : Shape := ⟨2, ![64, 512]⟩
abbrev K1 : Shape := ⟨1, ![64]⟩
abbrev K1I : Shape := ⟨3, ![64, 1, 512]⟩

variable {α : Type}

/-! ## Shape casts -/

/-- `[64,64] → [64,64,1]`. -/
theorem cast_K2_K21 (v : K2.Idx → α) (h : K2.ShapeCasts K21) (o j : Fin 64) :
    shapeCast K21 v h (ix3 o j (0 : Fin 1)) = v (ix2 o j) :=
  shapeCast_apply v h _ _ (by
    rw [Shape.rowMajor_val_two, Shape.rowMajor_val_three]
    show o.val * 64 + j.val = (o.val * 64 + j.val) * 1 + 0
    omega)

/-- `[64,64,1] → [64,64]`. -/
theorem cast_K21_K2 (v : K21.Idx → α) (h : K21.ShapeCasts K2) (o j : Fin 64) :
    shapeCast K2 v h (ix2 o j) = v (ix3 o j (0 : Fin 1)) :=
  shapeCast_apply v h _ _ (by
    rw [Shape.rowMajor_val_two, Shape.rowMajor_val_three]
    show (o.val * 64 + j.val) * 1 + 0 = o.val * 64 + j.val
    omega)

/-- `[64,1] → [64,1,1]`. -/
theorem cast_K11_K111 (v : K11.Idx → α) (h : K11.ShapeCasts K111) (o : Fin 64) :
    shapeCast K111 v h (ix3 o (0 : Fin 1) (0 : Fin 1)) = v (ix2 o (0 : Fin 1)) :=
  shapeCast_apply v h _ _ (by
    rw [Shape.rowMajor_val_two, Shape.rowMajor_val_three]
    show o.val * 1 + 0 = (o.val * 1 + 0) * 1 + 0
    omega)

/-- `[64] → [64,1]`. -/
theorem cast_K1_K11 (v : K1.Idx → α) (h : K1.ShapeCasts K11) (o : Fin 64) :
    shapeCast K11 v h (ix2 o (0 : Fin 1)) = v (ix1 o) :=
  shapeCast_apply v h _ _ (by
    rw [Shape.rowMajor_val_two, Shape.rowMajor_val_one]
    show o.val = o.val * 1 + 0
    omega)

/-- `[64,512] → [64,1,512]`. -/
theorem cast_KI_K1I (v : KI.Idx → α) (h : KI.ShapeCasts K1I) (o : Fin 64) (i : Fin 512) :
    shapeCast K1I v h (ix3 o (0 : Fin 1) i) = v (ix2 o i) :=
  shapeCast_apply v h _ _ (by
    rw [Shape.rowMajor_val_two, Shape.rowMajor_val_three]
    show o.val * 512 + i.val = (o.val * 1 + 0) * 512 + i.val
    omega)

/-! ## Broadcasts -/

/-- `[64,1,1] → [64,64,1]`. -/
theorem bc_K111_K21 (v : K111.Idx → α) (h : K111.Broadcasts K21) (o j : Fin 64) :
    broadcastTo K21 v h (ix3 o j (0 : Fin 1)) = v (ix3 o (0 : Fin 1) (0 : Fin 1)) := by
  refine broadcastTo_apply v h _ _ fun ax => ?_
  match ax with
  | ⟨0, _⟩ => rfl
  | ⟨1, _⟩ => rfl
  | ⟨2, _⟩ => rfl

/-- `[64,64,1] → [64,64,512]`. -/
theorem bc_K21_K3 (v : K21.Idx → α) (h : K21.Broadcasts K3) (o j : Fin 64) (i : Fin 512) :
    broadcastTo K3 v h (ix3 o j i) = v (ix3 o j (0 : Fin 1)) := by
  refine broadcastTo_apply v h _ _ fun ax => ?_
  match ax with
  | ⟨0, _⟩ => rfl
  | ⟨1, _⟩ => rfl
  | ⟨2, _⟩ => rfl

/-- `[64,1] → [64,512]`. -/
theorem bc_K11_KI (v : K11.Idx → α) (h : K11.Broadcasts KI) (o : Fin 64) (i : Fin 512) :
    broadcastTo KI v h (ix2 o i) = v (ix2 o (0 : Fin 1)) := by
  refine broadcastTo_apply v h _ _ fun ax => ?_
  match ax with
  | ⟨0, _⟩ => rfl
  | ⟨1, _⟩ => rfl

/-- `[64,1,512] → [64,64,512]`. -/
theorem bc_K1I_K3 (v : K1I.Idx → α) (h : K1I.Broadcasts K3) (o j : Fin 64) (i : Fin 512) :
    broadcastTo K3 v h (ix3 o j i) = v (ix3 o (0 : Fin 1) i) := by
  refine broadcastTo_apply v h _ _ fun ax => ?_
  match ax with
  | ⟨0, _⟩ => rfl
  | ⟨1, _⟩ => rfl
  | ⟨2, _⟩ => rfl

/-! ## Reductions over one axis -/

variable {F : FTy → Type} [FloatOps F]

/-- The sum over the in-capsules of a `[64,64,512]` vector. -/
def sumI3 (h : K3.Reduces [2] K2) (v : FVec F K3 .f32) : FVec F K2 .f32 :=
  multiReduction .add [2] K2 v 0x00000000#32 h (.inl rfl) rfl

/-- The sum over the output coordinates of a `[64,64,512]` vector. -/
def sumJ3 (h : K3.Reduces [1] KI) (v : FVec F K3 .f32) : FVec F KI .f32 :=
  multiReduction .add [1] KI v 0x00000000#32 h (.inl rfl) rfl

/-- The sum over the output coordinates of a `[64,64,1]` vector. -/
def sumJ1 (h : K21.Reduces [1] K11) (v : FVec F K21 .f32) : FVec F K11 .f32 :=
  multiReduction .add [1] K11 v 0x00000000#32 h (.inl rfl) rfl

/-- The sum over the in-capsules of a `[64,512]` vector. -/
def sumI2 (h : KI.Reduces [1] K1) (v : FVec F KI .f32) : FVec F K1 .f32 :=
  multiReduction .add [1] K1 v 0x00000000#32 h (.inl rfl) rfl

/-- The maximum over the in-capsules of a `[64,512]` vector, from `-∞`. -/
def maxI2 (h : KI.Reduces [1] K1) (v : FVec F KI .f32) : FVec F K1 .f32 :=
  multiReduction .maximumf [1] K1 v 0xFF800000#32 h (.inl rfl) rfl

theorem sumI3_apply (h : K3.Reduces [2] K2) (v : FVec Ideal K3 .f32) (o j : Fin 64) :
    sumI3 h v (ix2 o j) = ∑ i : Fin 512, v (ix3 o j i) := by
  refine (Ideal.multiReduction_add_single v _ h _ _ (ix2 o j)).trans ?_
  refine Finset.sum_congr rfl fun k _ => congrArg v (funext fun a => ?_)
  match a with
  | ⟨0, _⟩ => rfl
  | ⟨1, _⟩ => rfl
  | ⟨2, _⟩ => rfl

theorem sumJ3_apply (h : K3.Reduces [1] KI) (v : FVec Ideal K3 .f32) (o : Fin 64) (i : Fin 512) :
    sumJ3 h v (ix2 o i) = ∑ j : Fin 64, v (ix3 o j i) := by
  refine (Ideal.multiReduction_add_single v _ h _ _ (ix2 o i)).trans ?_
  refine Finset.sum_congr rfl fun k _ => congrArg v (funext fun a => ?_)
  match a with
  | ⟨0, _⟩ => rfl
  | ⟨1, _⟩ => rfl
  | ⟨2, _⟩ => rfl

theorem sumJ1_apply (h : K21.Reduces [1] K11) (v : FVec Ideal K21 .f32) (o : Fin 64) :
    sumJ1 h v (ix2 o (0 : Fin 1)) = ∑ j : Fin 64, v (ix3 o j (0 : Fin 1)) := by
  refine (Ideal.multiReduction_add_single v _ h _ _ (ix2 o (0 : Fin 1))).trans ?_
  refine Finset.sum_congr rfl fun k _ => congrArg v (funext fun a => ?_)
  match a with
  | ⟨0, _⟩ => rfl
  | ⟨1, _⟩ => rfl
  | ⟨2, _⟩ => rfl

theorem sumI2_apply (h : KI.Reduces [1] K1) (v : FVec Ideal KI .f32) (o : Fin 64) :
    sumI2 h v (ix1 o) = ∑ i : Fin 512, v (ix2 o i) := by
  refine (Ideal.multiReduction_add_single v _ h _ _ (ix1 o)).trans ?_
  refine Finset.sum_congr rfl fun k _ => congrArg v (funext fun a => ?_)
  match a with
  | ⟨0, _⟩ => rfl
  | ⟨1, _⟩ => rfl

theorem maxI2_apply (h : KI.Reduces [1] K1) (v : FVec Ideal KI .f32) (o : Fin 64) :
    maxI2 h v (ix1 o)
      = (Finset.univ : Finset (Fin 512)).fold max (Ideal.ofBits .f32 0xFF800000#32) (fun i => v (ix2 o i)) := by
  refine (Ideal.multiReduction_maximumf_single v _ h _ _ (ix1 o)).trans ?_
  refine congrArg (Finset.fold max (Ideal.ofBits .f32 0xFF800000#32) · (Finset.univ : Finset (Fin 512))) ?_
  funext k
  refine congrArg v (funext fun a => ?_)
  match a with
  | ⟨0, _⟩ => rfl
  | ⟨1, _⟩ => rfl

end Cert.Routing.LayK

end
-- ==== Proof.KStage.lean ====
/-
  One grid point's arithmetic, cut into the routing computation's stages and read at an index.

  At a grid point the kernel holds the priors of 64 out-capsules as a `[64, 64, 512]` vector `pr` (out-capsule o, output
  coordinate j, in-capsule i) and the current output vectors as `[64, 64, 1]`. Its body is the mean (`kMean`) followed by
  three copies of the same three stages: scores from the normalised output (`kLogit`), exponentials of the scores less
  their maximum (`kExp`), and the priors averaged with the normalised exponentials (`kUpd`). The payloads are these
  stages composed (`pay3_eq`, `pay4_eq`, `pay1_eq`), and each stage at out-capsule `o` is the corresponding function of
  `Spec.lean` of that out-capsule's priors `fun i j => pr (o, j, i)`: every re-laying only moves the coordinates `o`, `j`,
  `i` around unit axes, and every reduction is a sum or a maximum over `i` or over `j`.

  The priors themselves are the matrix product of the weight block, flattened to 4096 rows `o·64 + j`, with the input
  block, contracted over the input coordinate `l` (`pay2_apply`).
-/
import proofs.«169083_j18056042512757_2_alg».proof.Proof.Gen.KernelIdeal.Skeleton
import proofs.«169083_j18056042512757_2_alg».proof.Proof.Spec
import proofs.«169083_j18056042512757_2_alg».proof.Proof.LayK
import Idealize.ShloMosaic.Lib.ValueLayout

noncomputable section

open scoped BigOperators

namespace Cert.KernelIdeal.Stage

open Cert.KernelIdeal Cert.KernelIdeal.Gen
open Idealize.ShloMosaic Idealize.ShloMosaic.ValueIdx Cert.Routing Cert.Routing.LayK

variable [Facts]

section Stages

variable {F : FTy → Type} [FloatOps F]

/-- The mean of the priors over the in-capsules. -/
def kMean (pr : FVec F S64x64x512 .bf16) : FVec F S64x64x1 .f32 :=
  mulf (shapeCast S64x64x1 (sumI3 Facts₀.reduces_S64x64x512_S64x64 (extf .f32 pr Facts₀.bitsLt_bf16_f32)) Facts₀.shapeCasts_S64x64_S64x64x1)
    (broadcast S64x64x1 (Scalar.ofBits .f32 0x3B000000#32))

/-- The in-capsules' scores against the normalised output vector. -/
def kLogit (pr : FVec F S64x64x512 .bf16) (out : FVec F S64x64x1 .f32) : FVec F S64x512 .f32 :=
  sumJ3 Facts₀.reduces_S64x64x512_S64x512
    (mulf (extf .f32 pr Facts₀.bitsLt_bf16_f32)
      (broadcastTo S64x64x512
        (divf out
          (broadcastTo S64x64x1
            (maximumf
              (sqrt (shapeCast S64x1x1 (sumJ1 Facts₀.reduces_S64x64x1_S64x1 (mulf out out)) Facts₀.shapeCasts_S64x1_S64x1x1))
              (broadcast S64x1x1 (Scalar.ofBits .f32 0x2B8CBCCC#32)))
            Facts₀.broadcasts_S64x1x1_S64x64x1))
        Facts₀.broadcasts_S64x64x1_S64x64x512))

/-- The exponentials of the scores less their maximum. -/
def kExp (lg : FVec F S64x512 .f32) : FVec F S64x512 .f32 :=
  exp (subf lg
    (broadcastTo S64x512
      (shapeCast S64x1
        (maximumf (broadcast S64 (Scalar.ofBits .f32 0xFF800000#32)) (maxI2 Facts₀.reduces_S64x512_S64 lg))
        Facts₀.shapeCasts_S64_S64x1)
      Facts₀.broadcasts_S64x1_S64x512))

/-- The priors averaged with the normalised exponentials. -/
def kUpd (pr : FVec F S64x64x512 .bf16) (e : FVec F S64x512 .f32) : FVec F S64x64x1 .f32 :=
  shapeCast S64x64x1
    (sumI3 Facts₀.reduces_S64x64x512_S64x64
      (mulf
        (broadcastTo S64x64x512
          (shapeCast S64x1x512
            (divf e
              (broadcastTo S64x512 (shapeCast S64x1 (sumI2 Facts₀.reduces_S64x512_S64 e) Facts₀.shapeCasts_S64_S64x1)
                Facts₀.broadcasts_S64x1_S64x512))
            Facts₀.shapeCasts_S64x512_S64x1x512)
          Facts₀.broadcasts_S64x1x512_S64x64x512)
        (extf .f32 pr Facts₀.bitsLt_bf16_f32)))
    Facts₀.shapeCasts_S64x64_S64x64x1

/-- One round: scores, exponentials, average. -/
def kStep (pr : FVec F S64x64x512 .bf16) (out : FVec F S64x64x1 .f32) : FVec F S64x64x1 .f32 :=
  kUpd pr (kExp (kLogit pr out))

/-- The first payload: the mean and the first round. -/
theorem pay3_eq (v0 : Vec F S1x512x64 .bf16) (v2 : Vec F S64x64x64 .bf16) :
    k0_pay3 v0 v2 = kStep (k0_pay2 v0 v2) (kMean (k0_pay2 v0 v2)) := rfl

/-- The second payload: the second round and the third round's exponentials. -/
theorem pay4_eq (v7 : FVec F S64x64x512 .bf16) (v41 : FVec F S64x64x1 .f32) :
    k0_pay4 v7 v41 = kExp (kLogit v7 (kStep v7 v41)) := rfl

/-- The stored value: the third round's average, re-laid as `[1, 64, 64]`. -/
theorem pay1_eq (v7 : FVec F S64x64x512 .bf16) (v89 : FVec F S64x512 .f32) :
    k0_pay1 v7 v89
      = shapeCast S1x64x64 (shapeCast S64x64 (kUpd v7 v89) Facts₀.shapeCasts_S64x64x1_S64x64) Facts₀.shapeCasts_S64x64_S1x64x64 := rfl

end Stages

/-! ## The stages at an index, at the ideal values -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

theorem kMean_apply (pr : FVec Ideal S64x64x512 .bf16) (o j : Fin 64) :
    kMean pr (ix3 o j (0 : Fin 1)) = mean0 (fun i j => pr (ix3 o j i)) j := by
  unfold kMean mean0
  simp only [mulf_apply, cast_K2_K21, sumI3_apply, extf_apply, broadcast_apply]
  rfl

theorem kLogit_apply (pr : FVec Ideal S64x64x512 .bf16) (out : FVec Ideal S64x64x1 .f32) (o : Fin 64) (i : Fin 512) :
    kLogit pr out (ix2 o i) = logit (fun i j => pr (ix3 o j i)) (fun j => out (ix3 o j (0 : Fin 1))) i := by
  unfold kLogit logit nrm
  simp only [sumJ3_apply, mulf_apply, extf_apply, bc_K21_K3, divf_apply, bc_K111_K21, maximumf_apply, sqrt_apply,
    cast_K11_K111, sumJ1_apply, broadcast_apply]
  rfl

theorem kExp_apply (lg : FVec Ideal S64x512 .f32) (o : Fin 64) (i : Fin 512) :
    kExp lg (ix2 o i) = wexp (fun i => lg (ix2 o i)) i := by
  unfold kExp wexp top
  simp only [exp_apply, subf_apply, bc_K11_KI, cast_K1_K11, maximumf_apply, broadcast_apply, maxI2_apply]
  rfl

theorem kUpd_apply (pr : FVec Ideal S64x64x512 .bf16) (e : FVec Ideal S64x512 .f32) (o j : Fin 64) :
    kUpd pr e (ix3 o j (0 : Fin 1)) = upd (fun i j => pr (ix3 o j i)) (fun i => e (ix2 o i)) j := by
  unfold kUpd upd
  simp only [cast_K2_K21, sumI3_apply, mulf_apply, bc_K1I_K3, cast_KI_K1I, divf_apply, bc_K11_KI, cast_K1_K11,
    sumI2_apply, extf_apply]

theorem kStep_apply (pr : FVec Ideal S64x64x512 .bf16) (out : FVec Ideal S64x64x1 .f32) (o j : Fin 64) :
    kStep pr out (ix3 o j (0 : Fin 1))
      = step (fun i j => pr (ix3 o j i)) (fun j => out (ix3 o j (0 : Fin 1))) j := by
  unfold kStep step
  simp only [kUpd_apply, kExp_apply, kLogit_apply]

/-- The stored value at `(0, o, j)` is the routing of out-capsule `o`'s priors, at `j`. -/
theorem pay1_apply (P0 : Vec Ideal S1x512x64 .bf16) (P1 : Vec Ideal S64x64x64 .bf16) (o j : Fin 64) :
    k0_pay1 (k0_pay2 P0 P1) (k0_pay4 (k0_pay2 P0 P1) (k0_pay3 P0 P1)) (ix3 (0 : Fin 1) o j)
      = route (fun i j => k0_pay2 P0 P1 (ix3 o j i)) j := by
  rw [pay1_eq, pay4_eq, pay3_eq]
  rw [shapeCast_ab_1ab_apply, cast_K21_K2]
  unfold route
  simp only [kUpd_apply, kExp_apply, kLogit_apply, kStep_apply, kMean_apply]
  rfl

/-! ## The priors: the weight block times the input block -/

/-- The priors at `(o, j, i)`: row `o·64 + j` of the flattened weight block against row `i` of the input block,
    contracted over the input coordinate. -/
theorem pay2_apply (P0 : Vec Ideal S1x512x64 .bf16) (P1 : Vec Ideal S64x64x64 .bf16) (o j : Fin 64) (i : Fin 512) :
    k0_pay2 P0 P1 (ix3 o j i) = ∑ l : Fin 64, P1 (ix3 o j l) * P0 (ix3 (0 : Fin 1) i l) := by
  have hm : o.val * 64 + j.val < 4096 := by have := o.isLt; have := j.isLt; omega
  unfold k0_pay2
  refine (shapeCast_apply _ _ (ix3 o j i) (ix2 (⟨o.val * 64 + j.val, hm⟩ : Fin 4096) i) (by
    rw [Shape.rowMajor_val_two, Shape.rowMajor_val_three]
    show (o.val * 64 + j.val) * 512 + i.val = (o.val * 64 + j.val) * 512 + i.val
    rfl)).trans ?_
  refine (Ideal.matmul_constant_zero_apply dot_S4096x64_S512x64_S4096x512_1_1_0_0_n_n none _ _ _).trans ?_
  refine (Equiv.sum_comp (contrEquiv1 dot_S4096x64_S512x64_S4096x512_1_1_0_0_n_n 64 rfl rfl).symm _).symm.trans ?_
  refine Finset.sum_congr rfl fun l _ => ?_
  refine congrArg₂ (· * ·) ?_ ?_
  · -- the flattened weight block at (o·64 + j, l)
    refine (shapeCast_apply _ _ _ (ix3 o j l) (by
      rw [Shape.rowMajor_val_two, Shape.rowMajor_val_three]
      show (o.val * 64 + j.val) * 64 + l.val = _
      refine congrArg₂ (· + ·) (congrArg (· * 64) ?_) ?_
      · rfl
      · exact ((DotDims.lhsIdx_val_of_single _ rfl _ _).trans
          (contrEquiv1_symm_val dot_S4096x64_S512x64_S4096x512_1_1_0_0_n_n 64 rfl rfl l)).symm)).trans ?_
    rw [shapeCast_self]
  · -- the input block at (i, l)
    refine (shapeCast_apply _ _ _ (ix3 (0 : Fin 1) i l) (by
      rw [Shape.rowMajor_val_two, Shape.rowMajor_val_three]
      show (0 * 512 + i.val) * 64 + l.val = _
      refine congrArg₂ (· + ·) (congrArg (· * 64) ?_) ?_
      · show 0 * 512 + i.val = i.val
        omega
      · exact ((DotDims.rhsIdx_val_of_single _ rfl _ _).trans
          (contrEquiv1_symm_val dot_S4096x64_S512x64_S4096x512_1_1_0_0_n_n 64 rfl rfl l)).symm)).trans rfl

end Cert.KernelIdeal.Stage

end
-- ==== Proof.KValue.lean ====
/-
  From blocks to the array: what the kernel's result array holds after the run.

  The grid has 2 × 32 points; the point with coordinates (ot, b) reads batch `b`'s input block `[1, 512, 64]` and the weight
  block `[64, 64, 64]` of out-capsules `64·ot … 64·ot + 63`, and writes back block `(b, ot, 0)` of the result, of extents
  `[1, 64, 64]`. The staged arrays are the host's bf16 converts of the two arguments, which at the ideal values are the
  arguments themselves. So the value written at block coordinate `(0, o', j)` is the routing of the priors of batch `b`
  and out-capsule `64·ot + o'`: the result array's function `G` at `(b, 64·ot + o', j)`. The 64 blocks tile the array,
  so after the run the array is `G` of the arguments everywhere.
-/
import proofs.«169083_j18056042512757_2_alg».proof.Proof.Gen.KernelIdeal.Frame
import proofs.«169083_j18056042512757_2_alg».proof.Proof.Spec
import proofs.«169083_j18056042512757_2_alg».proof.Proof.KStage
import Idealize.ShloMosaic.Lib.Pipeline.Value
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Stage
open Idealize.ShloMosaic.ValueIdx Cert.Routing

variable (m : (ℓ : Loc nD τ sig) → Buf (Elt Ideal) ℓ) (ρ : Dev nD → PrngReg)

theorem hz : (![0, 0, 0] : Fin 3 → Nat) = fun _ => 0 := funext fun a => by fin_cases a <;> rfl

/-- The staged input array is the first argument (its bf16 convert is the identity at the ideal values). -/
theorem V_v0 (c : Dev nD) :
    (V m c main_v0 : S32x512x64.Idx → EReal) = (m ((c : Thread nD τ).loc main_arg0) : S32x512x64.Idx → EReal) := by
  have e : (V m c main_v0 : S32x512x64.Idx → EReal)
      = truncf (F := Ideal) .bf16 (m ((c : Thread nD τ).loc main_arg0) : FVec Ideal S32x512x64 .f32) Facts₀.bitsLt_bf16_f32 := by
    dsimp only [Gen.V, Gen.hostOps0]; after_results
  rw [e]; rfl

/-- The staged weight array is the second argument. -/
theorem V_v1 (c : Dev nD) :
    (V m c main_v1 : S128x64x64.Idx → EReal) = (m ((c : Thread nD τ).loc main_arg1) : S128x64x64.Idx → EReal) := by
  have e : (V m c main_v1 : S128x64x64.Idx → EReal)
      = truncf (F := Ideal) .bf16 (m ((c : Thread nD τ).loc main_arg1) : FVec Ideal S128x64x64 .f32) Facts₀.bitsLt_bf16_f32 := by
    dsimp only [Gen.V, Gen.hostOps0]; after_results
  rw [e]; rfl

/-- The printed index maps over the 64 grid points: the input block follows the result block's batch coordinate, the
    weight block its out-capsule tile, every other block coordinate is 0, and the two stay in range. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (1 : Fin 3) ∧ win0_1.index t (1 : Fin 3) = 0 ∧ win0_1.index t (2 : Fin 3) = 0
    ∧ win0_2.index t (2 : Fin 3) = 0 ∧ win0_2.index t (0 : Fin 3) < 32 ∧ win0_2.index t (1 : Fin 3) < 2 :=
  (by decide +kernel : ∀ t : Fin grid0.N, _)

/-- The result block's index in closed form: point `t` writes block `(t mod 32, t / 32, 0)`. -/
theorem idx_closed : ∀ t : Fin cfg0.N,
    win0_2.index t (0 : Fin 3) = t.val % 32 ∧ win0_2.index t (1 : Fin 3) = t.val / 32 ∧ win0_2.index t (2 : Fin 3) = 0 :=
  (by decide +kernel : ∀ t : Fin grid0.N, _)

/-- The value a point stores at block coordinate `y`, for blocks `P0`, `P1` that are batch `bb`'s input rows and the
    weight rows of out-capsule tile `ot`: the result function at the array index `k` under `y`. -/
theorem stored_val (x : S32x512x64.Idx → EReal) (w : S128x64x64.Idx → EReal)
    (P0 : Vec Ideal S1x512x64 .bf16) (P1 : Vec Ideal S64x64x64 .bf16) (y : S1x64x64.Idx) (k : S32x128x64.Idx)
    (bb : Fin 32) (oo : Fin 128)
    (hk0 : k 0 = bb) (hk1 : k 1 = oo) (hk2 : (k 2).val = (y 2).val)
    (h0 : ∀ (i : Fin 512) (l : Fin 64), P0 (ix3 (0 : Fin 1) i l) = x (ix3 bb i l))
    (h1 : ∀ (o' j l : Fin 64), o'.val = (y 1).val → P1 (ix3 o' j l) = w (ix3 oo j l)) :
    k0_pay1 (k0_pay2 P0 P1) (k0_pay4 (k0_pay2 P0 P1) (k0_pay3 P0 P1)) y = G x w k := by
  obtain ⟨u, o, j, rfl⟩ : ∃ (u : Fin 1) (o j : Fin 64), y = ix3 u o j := ⟨y 0, y 1, y 2, eq_ix3 y⟩
  obtain rfl : u = 0 := Subsingleton.elim _ _
  obtain ⟨kb, ko, kj, rfl⟩ : ∃ (kb : Fin 32) (ko : Fin 128) (kj : Fin 64), k = ix3 kb ko kj := ⟨k 0, k 1, k 2, eq_ix3 k⟩
  obtain rfl : kb = bb := hk0
  obtain rfl : ko = oo := hk1
  obtain rfl : j = kj := (Fin.ext hk2).symm
  rw [pay1_apply, G_ix3]
  unfold Gc
  refine congrArg (fun P => route P j) (funext fun i => funext fun j' => ?_)
  rw [pay2_apply]
  exact Finset.sum_congr rfl fun l _ => congrArg₂ (· * ·) (h1 o j' l rfl) (h0 i l)

/-! ## The input blocks read through their windows -/

/-- The input block at a point is the rows of the first argument at the point's batch coordinate. -/
theorem iblk0_apply (c : Dev nD) (t : Fin cfg0.N) (bb : Fin 32) (hb : win0_2.index t (0 : Fin 3) = bb.val)
    (i : Fin 512) (l : Fin 64) :
    (iblk m c 0 t : Vec Ideal S1x512x64 .bf16) (ix3 (0 : Fin 1) i l)
      = (m ((c : Thread nD τ).loc main_arg0) : S32x512x64.Idx → EReal) (ix3 bb i l) := by
  obtain ⟨e0, e1, e2, -⟩ := idx_facts t
  unfold iblk
  rw [View.read_apply]
  show V m c main_v0 _ = _
  rw [V_v0]
  refine congrArg _ (funext fun a => Fin.ext ?_)
  match a with
  | ⟨0, _⟩ => show win0_0.index t (0 : Fin 3) * 1 + 1 * 0 = bb.val; omega
  | ⟨1, _⟩ => show win0_0.index t (1 : Fin 3) * 512 + 1 * i.val = i.val; omega
  | ⟨2, _⟩ => show win0_0.index t (2 : Fin 3) * 64 + 1 * l.val = l.val; omega

/-- The weight block at a point is the rows of the second argument in the point's out-capsule tile. -/
theorem iblk1_apply (c : Dev nD) (t : Fin cfg0.N) (o' : Fin 64) (oo : Fin 128)
    (ho : win0_2.index t (1 : Fin 3) * 64 + o'.val = oo.val) (j l : Fin 64) :
    (iblk m c 1 t : Vec Ideal S64x64x64 .bf16) (ix3 o' j l)
      = (m ((c : Thread nD τ).loc main_arg1) : S128x64x64.Idx → EReal) (ix3 oo j l) := by
  obtain ⟨-, -, -, e3, e4, e5, -⟩ := idx_facts t
  unfold iblk
  rw [View.read_apply]
  show V m c main_v1 _ = _
  rw [V_v1]
  refine congrArg _ (funext fun a => Fin.ext ?_)
  match a with
  | ⟨0, _⟩ => show win0_1.index t (0 : Fin 3) * 64 + 1 * o'.val = oo.val; omega
  | ⟨1, _⟩ => show win0_1.index t (1 : Fin 3) * 64 + 1 * j.val = j.val; omega
  | ⟨2, _⟩ => show win0_1.index t (2 : Fin 3) * 64 + 1 * l.val = l.val; omega

/-! ## What a point writes back, the cover, and the array after the run -/

/-- WHAT POINT `t` WRITES BACK is block `t` of the result function of the two arguments. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S1x512x64) hz, View.ld_unit_zero (S := S64x64x64) hz]
  obtain ⟨-, -, -, -, -, -, e6, e7, e8⟩ := idx_facts t
  refine funext fun (y : S1x64x64.Idx) => ?_
  have hy0 : (y 0).val < 1 := (y 0).isLt
  have hy1 : (y 1).val < 64 := (y 1).isLt
  have hy2 : (y 2).val < 64 := (y 2).isLt
  show k0_pay1 (k0_pay2 (iblk m c 0 t) (iblk m c 1 t))
      (k0_pay4 (k0_pay2 (iblk m c 0 t) (iblk m c 1 t)) (k0_pay3 (iblk m c 0 t) (iblk m c 1 t))) y
    = G (m ((c : Thread nD τ).loc main_arg0)) (m ((c : Thread nD τ).loc main_arg1)) (((cfg0.win 2).blk t).view.emb y)
  refine stored_val _ _ _ _ y _ ⟨win0_2.index t (0 : Fin 3), e7⟩ ⟨win0_2.index t (1 : Fin 3) * 64 + (y 1).val, by omega⟩
    (Fin.ext ?_) (Fin.ext ?_) ?_ (fun i l => iblk0_apply m c t _ rfl i l)
    (fun o' j l ho' => iblk1_apply m c t o' _ (by show win0_2.index t (1 : Fin 3) * 64 + o'.val = win0_2.index t (1 : Fin 3) * 64 + (y 1).val; omega) j l)
  · show win0_2.index t (0 : Fin 3) * 1 + 1 * (y 0).val = win0_2.index t (0 : Fin 3); omega
  · show win0_2.index t (1 : Fin 3) * 64 + 1 * (y 1).val = win0_2.index t (1 : Fin 3) * 64 + (y 1).val; omega
  · show win0_2.index t (2 : Fin 3) * 64 + 1 * (y 2).val = (y 2).val; omega

/-- An index of the array is in point `t`'s block iff each coordinate is in the block's range on its axis. -/
theorem mem_blk (t : Fin cfg0.N) (i : S32x128x64.Idx) :
    i ∈ ((cfg0.win 2).blk t).view.set ↔ ∀ a : Fin 3, win0_2.index t a * S1x64x64.size a ≤ (i a).val
      ∧ (i a).val < win0_2.index t a * S1x64x64.size a + S1x64x64.size a := by
  show i ∈ ((View.whole main_v2).slice (win0_2.rect t)).set ↔ _
  rw [View.set_slice_whole, Rect.mem_set_unit]
  exact Iff.rfl

/-- The 64 blocks cover the array: index `(b, o, j)` lies in the block of the point with batch `b` and tile `o / 64`. -/
theorem cover (i : S32x128x64.Idx) :
    ∃ t : Fin cfg0.N, (cfg0.win 2).flush t = true ∧ i ∈ ((cfg0.win 2).blk t).view.set := by
  have h0 : (i 0).val < 32 := (i 0).isLt
  have h1 : (i 1).val < 128 := (i 1).isLt
  have h2 : (i 2).val < 64 := (i 2).isLt
  have hN : cfg0.N = 64 := N_0
  let t : Fin cfg0.N := ⟨(i 1).val / 64 * 32 + (i 0).val, by rw [hN]; omega⟩
  obtain ⟨q0, q1, q2⟩ := idx_closed t
  have ht : t.val = (i 1).val / 64 * 32 + (i 0).val := rfl
  rw [ht] at q0 q1
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 64 ≤ (i 2).val ∧ (i 2).val < win0_2.index t (2 : Fin 3) * 64 + 64; omega

/-- THE ARRAY after the run is the result function of the two arguments. -/
theorem final (c : Dev nD) :
    (dats m 0 c).arrAt 2 cfg0.N
      = G (m ((c : Thread nD τ).loc main_arg0)) (m ((c : Thread nD τ).loc main_arg1)) :=
  (dats m 0 c).arrAt_eq_of_cover 2 _ (fun t _ => flushed_eq m c t) cover

/-- The frame run re-posted: the result array at the result function of the arguments, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.KValue

end
-- ==== Proof.LayR.lean ====
/-
  The reference's re-layings and reductions read at an index written by coordinates.

  The reference keeps the priors as (batch b of 32, out-capsule o of 128, in-capsule i of 512, output coordinate j of 64).
  Each lemma reads one `broadcast_in_dim`, one transpose, one reshape or one single-axis host reduction of that layout at
  `ixN` coordinates: a broadcast reads coordinate 0 on the operand's unit axes, a host sum over one axis is the initial
  value plus the sum over that axis's coordinate, a host maximum the fold of `max` from the initial value over it.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Routing.LayR

open Idealize.ShloMosaic Idealize.ShloMosaic.ValueIdx

abbrev R4 : Shape := ⟨4, ![32, 128, 512, 64]⟩
abbrev Rd : Shape := ⟨4, ![32, 512, 128, 64]⟩
abbrev R3 : Shape := ⟨3, ![32, 128, 64]⟩
abbrev R31 : Shape := ⟨4, ![32, 128, 1, 64]⟩
abbrev R21 : Shape := ⟨3, ![32, 128, 1]⟩
abbrev R211 : Shape := ⟨4, ![32, 128, 1, 1]⟩
abbrev RI : Shape := ⟨3, ![32, 128, 512]⟩
abbrev RI1 : Shape := ⟨4, ![32, 128, 512, 1]⟩
abbrev S0 : Shape := ⟨0, ![]⟩

variable {α : Type}

/-! ## Broadcasts -/

/-- `[32,128,64] → [32,128,1,64]` along axes 0, 1, 3. -/
theorem bc_R3_R31 (v : R3.Idx → α) (h : R3.BroadcastsInDim R31 ![0, 1, 3]) (b : Fin 32) (o : Fin 128) (j : Fin 64) :
    broadcastInDim R31 ![0, 1, 3] h v (ix4 b o (0 : Fin 1) j) = v (ix3 b o j) := by
  refine broadcastInDim_apply _ h v _ _ fun ax => ?_
  match ax with
  | ⟨0, _⟩ => rfl
  | ⟨1, _⟩ => rfl
  | ⟨2, _⟩ => rfl

/-- `[32,128,1] → [32,128,1,1]` along axes 0, 1, 2. -/
theorem bc_R21_R211 (v : R21.Idx → α) (h : R21.BroadcastsInDim R211 ![0, 1, 2]) (b : Fin 32) (o : Fin 128) :
    broadcastInDim R211 ![0, 1, 2] h v (ix4 b o (0 : Fin 1) (0 : Fin 1)) = v (ix3 b o (0 : Fin 1)) := by
  refine broadcastInDim_apply _ h v _ _ fun ax => ?_
  match ax with
  | ⟨0, _⟩ => rfl
  | ⟨1, _⟩ => rfl
  | ⟨2, _⟩ => rfl

/-- `[32,128,1] → [32,128,1,1]` along axes 0, 1, 3. -/
theorem bc_R21_R211' (v : R21.Idx → α) (h : R21.BroadcastsInDim R211 ![0, 1, 3]) (b : Fin 32) (o : Fin 128) :
    broadcastInDim R211 ![0, 1, 3] h v (ix4 b o (0 : Fin 1) (0 : Fin 1)) = v (ix3 b o (0 : Fin 1)) := by
  refine broadcastInDim_apply _ h v _ _ fun ax => ?_
  match ax with
  | ⟨0, _⟩ => rfl
  | ⟨1, _⟩ => rfl
  | ⟨2, _⟩ => rfl

/-- `[32,128,1,1] → [32,128,1,64]`. -/
theorem bc_R211_R31 (v : R211.Idx → α) (h : R211.BroadcastsInDim R31 ![0, 1, 2, 3]) (b : Fin 32) (o : Fin 128) (j : Fin 64) :
    broadcastInDim R31 ![0, 1, 2, 3] h v (ix4 b o (0 : Fin 1) j) = v (ix4 b o (0 : Fin 1) (0 : Fin 1)) := by
  refine broadcastInDim_apply _ h v _ _ fun ax => ?_
  match ax with
  | ⟨0, _⟩ => rfl
  | ⟨1, _⟩ => rfl
  | ⟨2, _⟩ => rfl
  | ⟨3, _⟩ => rfl

/-- `[32,128,1,64] → [32,128,512,64]`. -/
theorem bc_R31_R4 (v : R31.Idx → α) (h : R31.BroadcastsInDim R4 ![0, 1, 2, 3]) (b : Fin 32) (o : Fin 128) (i : Fin 512) (j : Fin 64) :
    broadcastInDim R4 ![0, 1, 2, 3] h v (ix4 b o i j) = v (ix4 b o (0 : Fin 1) j) := by
  refine broadcastInDim_apply _ h v _ _ fun ax => ?_
  match ax with
  | ⟨0, _⟩ => rfl
  | ⟨1, _⟩ => rfl
  | ⟨2, _⟩ => rfl
  | ⟨3, _⟩ => rfl

/-- `[32,128,512] → [32,128,512,1]` along axes 0, 1, 2. -/
theorem bc_RI_RI1 (v : RI.Idx → α) (h : RI.BroadcastsInDim RI1 ![0, 1, 2]) (b : Fin 32) (o : Fin 128) (i : Fin 512) :
    broadcastInDim RI1 ![0, 1, 2] h v (ix4 b o i (0 : Fin 1)) = v (ix3 b o i) := by
  refine broadcastInDim_apply _ h v _ _ fun ax => ?_
  match ax with
  | ⟨0, _⟩ => rfl
  | ⟨1, _⟩ => rfl
  | ⟨2, _⟩ => rfl

/-- `[32,128,1,1] → [32,128,512,1]`. -/
theorem bc_R211_RI1 (v : R211.Idx → α) (h : R211.BroadcastsInDim RI1 ![0, 1, 2, 3]) (b : Fin 32) (o : Fin 128) (i : Fin 512) :
    broadcastInDim RI1 ![0, 1, 2, 3] h v (ix4 b o i (0 : Fin 1)) = v (ix4 b o (0 : Fin 1) (0 : Fin 1)) := by
  refine broadcastInDim_apply _ h v _ _ fun ax => ?_
  match ax with
  | ⟨0, _⟩ => rfl
  | ⟨1, _⟩ => rfl
  | ⟨2, _⟩ => rfl
  | ⟨3, _⟩ => rfl

/-- `[32,128,512,1] → [32,128,512,64]`. -/
theorem bc_RI1_R4 (v : RI1.Idx → α) (h : RI1.BroadcastsInDim R4 ![0, 1, 2, 3]) (b : Fin 32) (o : Fin 128) (i : Fin 512) (j : Fin 64) :
    broadcastInDim R4 ![0, 1, 2, 3] h v (ix4 b o i j) = v (ix4 b o i (0 : Fin 1)) := by
  refine broadcastInDim_apply _ h v _ _ fun ax => ?_
  match ax with
  | ⟨0, _⟩ => rfl
  | ⟨1, _⟩ => rfl
  | ⟨2, _⟩ => rfl
  | ⟨3, _⟩ => rfl

/-! ## The broadcasts named

Each `broadcast_in_dim` of this layout under a name of its own, with what it reads at an index. -/

/-- `R3 → R31` along ![0, 1, 3]. -/
def bR3_R31 (h : R3.BroadcastsInDim R31 ![0, 1, 3]) (v : R3.Idx → α) : R31.Idx → α := broadcastInDim R31 ![0, 1, 3] h v

theorem bR3_R31_apply (h : R3.BroadcastsInDim R31 ![0, 1, 3]) (v : R3.Idx → α) (b : Fin 32) (o : Fin 128) (j : Fin 64) :
    bR3_R31 h v (ix4 b o (0 : Fin 1) j) = v (ix3 b o j) := bc_R3_R31 v h b o j

/-- `R21 → R211` along ![0, 1, 2]. -/
def bR21_R211 (h : R21.BroadcastsInDim R211 ![0, 1, 2]) (v : R21.Idx → α) : R211.Idx → α := broadcastInDim R211 ![0, 1, 2] h v

theorem bR21_R211_apply (h : R21.BroadcastsInDim R211 ![0, 1, 2]) (v : R21.Idx → α) (b : Fin 32) (o : Fin 128) :
    bR21_R211 h v (ix4 b o (0 : Fin 1) (0 : Fin 1)) = v (ix3 b o (0 : Fin 1)) := bc_R21_R211 v h b o

/-- `R21 → R211` along ![0, 1, 3]. -/
def bR21_R211' (h : R21.BroadcastsInDim R211 ![0, 1, 3]) (v : R21.Idx → α) : R211.Idx → α := broadcastInDim R211 ![0, 1, 3] h v

theorem bR21_R211'_apply (h : R21.BroadcastsInDim R211 ![0, 1, 3]) (v : R21.Idx → α) (b : Fin 32) (o : Fin 128) :
    bR21_R211' h v (ix4 b o (0 : Fin 1) (0 : Fin 1)) = v (ix3 b o (0 : Fin 1)) := bc_R21_R211' v h b o

/-- `R211 → R31` along ![0, 1, 2, 3]. -/
def bR211_R31 (h : R211.BroadcastsInDim R31 ![0, 1, 2, 3]) (v : R211.Idx → α) : R31.Idx → α := broadcastInDim R31 ![0, 1, 2, 3] h v

theorem bR211_R31_apply (h : R211.BroadcastsInDim R31 ![0, 1, 2, 3]) (v : R211.Idx → α) (b : Fin 32) (o : Fin 128) (j : Fin 64) :
    bR211_R31 h v (ix4 b o (0 : Fin 1) j) = v (ix4 b o (0 : Fin 1) (0 : Fin 1)) := bc_R211_R31 v h b o j

/-- `R31 → R4` along ![0, 1, 2, 3]. -/
def bR31_R4 (h : R31.BroadcastsInDim R4 ![0, 1, 2, 3]) (v : R31.Idx → α) : R4.Idx → α := broadcastInDim R4 ![0, 1, 2, 3] h v

theorem bR31_R4_apply (h : R31.BroadcastsInDim R4 ![0, 1, 2, 3]) (v : R31.Idx → α) (b : Fin 32) (o : Fin 128) (i : Fin 512) (j : Fin 64) :
    bR31_R4 h v (ix4 b o i j) = v (ix4 b o (0 : Fin 1) j) := bc_R31_R4 v h b o i j

/-- `RI → RI1` along ![0, 1, 2]. -/
def bRI_RI1 (h : RI.BroadcastsInDim RI1 ![0, 1, 2]) (v : RI.Idx → α) : RI1.Idx → α := broadcastInDim RI1 ![0, 1, 2] h v

theorem bRI_RI1_apply (h : RI.BroadcastsInDim RI1 ![0, 1, 2]) (v : RI.Idx → α) (b : Fin 32) (o : Fin 128) (i : Fin 512) :
    bRI_RI1 h v (ix4 b o i (0 : Fin 1)) = v (ix3 b o i) := bc_RI_RI1 v h b o i

/-- `R211 → RI1` along ![0, 1, 2, 3]. -/
def bR211_RI1 (h : R211.BroadcastsInDim RI1 ![0, 1, 2, 3]) (v : R211.Idx → α) : RI1.Idx → α := broadcastInDim RI1 ![0, 1, 2, 3] h v

theorem bR211_RI1_apply (h : R211.BroadcastsInDim RI1 ![0, 1, 2, 3]) (v : R211.Idx → α) (b : Fin 32) (o : Fin 128) (i : Fin 512) :
    bR211_RI1 h v (ix4 b o i (0 : Fin 1)) = v (ix4 b o (0 : Fin 1) (0 : Fin 1)) := bc_R211_RI1 v h b o i

/-- `RI1 → R4` along ![0, 1, 2, 3]. -/
def bRI1_R4 (h : RI1.BroadcastsInDim R4 ![0, 1, 2, 3]) (v : RI1.Idx → α) : R4.Idx → α := broadcastInDim R4 ![0, 1, 2, 3] h v

theorem bRI1_R4_apply (h : RI1.BroadcastsInDim R4 ![0, 1, 2, 3]) (v : RI1.Idx → α) (b : Fin 32) (o : Fin 128) (i : Fin 512) (j : Fin 64) :
    bRI1_R4 h v (ix4 b o i j) = v (ix4 b o i (0 : Fin 1)) := bc_RI1_R4 v h b o i j

/-- A scalar broadcast to any shape. -/
def bS (T : Shape) (h : S0.BroadcastsInDim T ![]) (x : S0.Idx → α) : T.Idx → α := broadcastInDim T ![] h x

theorem bS_apply (T : Shape) (h : S0.BroadcastsInDim T ![]) (x : S0.Idx → α) (j : T.Idx) : bS T h x j = x ix0 :=
  broadcastInDim_scalar_apply h x j

/-! ## The transpose and the final reshape -/

/-- `[32,512,128,64] → [32,128,512,64]`, axes 1 and 2 exchanged. -/
theorem tr_Rd_R4 (v : Rd.Idx → α) (h : Rd.Transposes [0, 2, 1, 3] R4) (b : Fin 32) (o : Fin 128) (i : Fin 512) (j : Fin 64) :
    transpose R4 [0, 2, 1, 3] v h (ix4 b o i j) = v (ix4 b i o j) := by
  refine transpose_apply _ v h _ _ fun ax => ?_
  match ax with
  | ⟨0, _⟩ => rfl
  | ⟨1, _⟩ => rfl
  | ⟨2, _⟩ => rfl
  | ⟨3, _⟩ => rfl

/-- `[32,128,1,64] → [32,128,64]`. -/
theorem cast_R31_R3 (v : R31.Idx → α) (h : R31.ShapeCasts R3) (b : Fin 32) (o : Fin 128) (j : Fin 64) :
    shapeCast R3 v h (ix3 b o j) = v (ix4 b o (0 : Fin 1) j) :=
  shapeCast_apply v h _ _ (by
    rw [Shape.rowMajor_val_four, Shape.rowMajor_val_three]
    show ((b.val * 128 + o.val) * 1 + 0) * 64 + j.val = (b.val * 128 + o.val) * 64 + j.val
    omega)

/-! ## Host reductions over one axis -/

/-- The host sum over the in-capsules of a `[32,128,512,64]` array. -/
theorem hsumI4_apply (h' : R4.ReducesTo [2] R3) (hu : 0 < S0.numel) (v : FVec Ideal R4 .f32) (init : S0.Idx → Ideal .f32)
    (b : Fin 32) (o : Fin 128) (j : Fin 64) :
    Host.reduceAdd v init h' hu (ix3 b o j) = init ix0 + ∑ i : Fin 512, v (ix4 b o i j) := by
  have hR : R4.Reduces [2] R3 := by decide
  refine (hostReduceAdd_apply v init h' hu _).trans ((Ideal.hostReduceAdd_single h' hR v _ _).trans ?_)
  refine congrArg₂ (· + ·) (congrArg init (eq_ix0 _)) ?_
  refine Finset.sum_congr rfl fun k _ => congrArg v (funext fun a => ?_)
  match a with
  | ⟨0, _⟩ => rfl
  | ⟨1, _⟩ => rfl
  | ⟨2, _⟩ => rfl
  | ⟨3, _⟩ => rfl

/-- The host sum over the output coordinates of a `[32,128,512,64]` array. -/
theorem hsumJ4_apply (h' : R4.ReducesTo [3] RI) (hu : 0 < S0.numel) (v : FVec Ideal R4 .f32) (init : S0.Idx → Ideal .f32)
    (b : Fin 32) (o : Fin 128) (i : Fin 512) :
    Host.reduceAdd v init h' hu (ix3 b o i) = init ix0 + ∑ j : Fin 64, v (ix4 b o i j) := by
  have hR : R4.Reduces [3] RI := by decide
  refine (hostReduceAdd_apply v init h' hu _).trans ((Ideal.hostReduceAdd_single h' hR v _ _).trans ?_)
  refine congrArg₂ (· + ·) (congrArg init (eq_ix0 _)) ?_
  refine Finset.sum_congr rfl fun k _ => congrArg v (funext fun a => ?_)
  match a with
  | ⟨0, _⟩ => rfl
  | ⟨1, _⟩ => rfl
  | ⟨2, _⟩ => rfl
  | ⟨3, _⟩ => rfl

/-- The host sum over the output coordinates of a `[32,128,1,64]` array. -/
theorem hsumJ1_apply (h' : R31.ReducesTo [3] R21) (hu : 0 < S0.numel) (v : FVec Ideal R31 .f32) (init : S0.Idx → Ideal .f32)
    (b : Fin 32) (o : Fin 128) :
    Host.reduceAdd v init h' hu (ix3 b o (0 : Fin 1)) = init ix0 + ∑ j : Fin 64, v (ix4 b o (0 : Fin 1) j) := by
  have hR : R31.Reduces [3] R21 := by decide
  refine (hostReduceAdd_apply v init h' hu _).trans ((Ideal.hostReduceAdd_single h' hR v _ _).trans ?_)
  refine congrArg₂ (· + ·) (congrArg init (eq_ix0 _)) ?_
  refine Finset.sum_congr rfl fun k _ => congrArg v (funext fun a => ?_)
  match a with
  | ⟨0, _⟩ => rfl
  | ⟨1, _⟩ => rfl
  | ⟨2, _⟩ => rfl
  | ⟨3, _⟩ => rfl

/-- The host sum over the in-capsules of a `[32,128,512,1]` array. -/
theorem hsumI1_apply (h' : RI1.ReducesTo [2] R21) (hu : 0 < S0.numel) (v : FVec Ideal RI1 .f32) (init : S0.Idx → Ideal .f32)
    (b : Fin 32) (o : Fin 128) :
    Host.reduceAdd v init h' hu (ix3 b o (0 : Fin 1)) = init ix0 + ∑ i : Fin 512, v (ix4 b o i (0 : Fin 1)) := by
  have hR : RI1.Reduces [2] R21 := by decide
  refine (hostReduceAdd_apply v init h' hu _).trans ((Ideal.hostReduceAdd_single h' hR v _ _).trans ?_)
  refine congrArg₂ (· + ·) (congrArg init (eq_ix0 _)) ?_
  refine Finset.sum_congr rfl fun k _ => congrArg v (funext fun a => ?_)
  match a with
  | ⟨0, _⟩ => rfl
  | ⟨1, _⟩ => rfl
  | ⟨2, _⟩ => rfl
  | ⟨3, _⟩ => rfl

/-- The host maximum over the in-capsules of a `[32,128,512,1]` array. -/
theorem hmaxI1_apply (h' : RI1.ReducesTo [2] R21) (hu : 0 < S0.numel) (v : FVec Ideal RI1 .f32) (init : S0.Idx → Ideal .f32)
    (b : Fin 32) (o : Fin 128) :
    Host.reduce FloatOps.maximumf v init h' hu (ix3 b o (0 : Fin 1))
      = (Finset.univ : Finset (Fin 512)).fold max (init ix0) (fun i => v (ix4 b o i (0 : Fin 1))) := by
  have hR : RI1.Reduces [2] R21 := by decide
  refine (Host.reduce_eq_fold_single FloatOps.maximumf v init h' hR hu _).trans ?_
  show (Finset.univ : Finset (Fin 512)).fold max (init (Shape.Idx.first hu)) (v ∘ hR.lift (ix3 b o (0 : Fin 1))) = _
  rw [show init (Shape.Idx.first hu) = init ix0 from congrArg init (eq_ix0 _)]
  refine congrArg (Finset.fold max (init ix0) · (Finset.univ : Finset (Fin 512))) ?_
  funext k
  refine congrArg v (funext fun a => ?_)
  match a with
  | ⟨0, _⟩ => rfl
  | ⟨1, _⟩ => rfl
  | ⟨2, _⟩ => rfl
  | ⟨3, _⟩ => rfl

end Cert.Routing.LayR

end
-- ==== Proof.RStage.lean ====
/-
  The reference's operations, cut into the routing computation's stages and read at an index.

  The reference holds the priors of every (batch, out-capsule) pair as a `[32, 128, 512, 64]` array `pr` (batch b,
  out-capsule o, in-capsule i, output coordinate j) and the current output vectors as `[32, 128, 1, 64]`. Its run is the
  mean (`rMean`) followed by three copies of the same three stages: scores from the normalised output (`rLogit`),
  exponentials of the scores less their maximum (`rExp`), and the priors averaged with the normalised exponentials
  (`rUpd`). The run's result term is these stages composed (`RResult.lean`), and each stage at `(b, o)` is the
  corresponding function of `Spec.lean` of that pair's priors `fun i j => pr (b, o, i, j)`. The host's sums start from
  the float zero, which is the real zero; its mean divides by the float 512 (`mean_div`).

  The priors are the product of the input with the weights contracted over the input coordinate `l`, then transposed
  so that the out-capsule comes before the in-capsule (`rPriors_apply`).
-/
import proofs.«169083_j18056042512757_2_alg».proof.ReferenceIdeal
import proofs.«169083_j18056042512757_2_alg».proof.Proof.Gen.ReferenceIdeal
import proofs.«169083_j18056042512757_2_alg».proof.Proof.Spec
import proofs.«169083_j18056042512757_2_alg».proof.Proof.LayR

noncomputable section

open scoped BigOperators

namespace Cert.ReferenceIdeal.Stage

open Cert.ReferenceIdeal
open Idealize.ShloMosaic Idealize.ShloMosaic.ValueIdx Cert.Routing Cert.Routing.LayR

variable [Facts]

section Stages

variable {F : FTy → Type} [FloatOps F]

/-- The priors: the contraction over the input coordinate, out-capsule before in-capsule. -/
def rPriors (x : FVec F S32x512x64 .f32) (w : FVec F S128x64x64 .f32) : FVec F S32x128x512x64 .f32 :=
  transpose S32x128x512x64 [0, 2, 1, 3]
    (Host.dotGeneral dot_S32x512x64_S128x64x64_S32x512x128x64_2_2_01_01_n_n none x w)
    Facts₀.transposes_S32x512x128x64_S32x128x512x64_0_2_1_3

/-- The mean of the priors over the in-capsules. -/
def rMean (pr : FVec F S32x128x512x64 .f32) : FVec F S32x128x1x64 .f32 :=
  Host.divf
    (bR3_R31 Facts₀.bcast_S32x128x64_S32x128x1x64_0_1_3
      (Host.reduceAdd pr (constant S_ .f32 0x00000000#32) Facts₀.reducesTo_S32x128x512x64_S32x128x64_d2 Facts₀.h_S_))
    (bS S32x128x1x64 Facts₀.bcast_S_S32x128x1x64 (constant S_ .f32 0x44000000#32))

/-- The in-capsules' scores against the normalised output vector. -/
def rLogit (pr : FVec F S32x128x512x64 .f32) (out : FVec F S32x128x1x64 .f32) : FVec F S32x128x512x1 .f32 :=
  bRI_RI1 Facts₀.bcast_S32x128x512_S32x128x512x1_0_1_2
    (Host.reduceAdd
      (mulf pr
        (bR31_R4 Facts₀.bcast_S32x128x1x64_S32x128x512x64_0_1_2_3
          (Host.divf out
            (bR211_R31 Facts₀.bcast_S32x128x1x1_S32x128x1x64_0_1_2_3
              (maximumf
                (Host.sqrt
                  (bR21_R211 Facts₀.bcast_S32x128x1_S32x128x1x1_0_1_2
                    (Host.reduceAdd (mulf out out) (constant S_ .f32 0x00000000#32)
                      Facts₀.reducesTo_S32x128x1x64_S32x128x1_d3 Facts₀.h_S_)))
                (bS S32x128x1x1 Facts₀.bcast_S_S32x128x1x1 (constant S_ .f32 0x2B8CBCCC#32)))))))
      (constant S_ .f32 0x00000000#32) Facts₀.reducesTo_S32x128x512x64_S32x128x512_d3 Facts₀.h_S_)

/-- The exponentials of the scores less their maximum. -/
def rExp (lg : FVec F S32x128x512x1 .f32) : FVec F S32x128x512x1 .f32 :=
  Host.exp
    (subf lg
      (bR211_RI1 Facts₀.bcast_S32x128x1x1_S32x128x512x1_0_1_2_3
        (bR21_R211' Facts₀.bcast_S32x128x1_S32x128x1x1_0_1_3
          (maximumf (bS S32x128x1 Facts₀.bcast_S_S32x128x1 (constant S_ .f32 0xFF800000#32))
            (Host.reduce FloatOps.maximumf lg (constant S_ .f32 0xFF800000#32)
              Facts₀.reducesTo_S32x128x512x1_S32x128x1_d2 Facts₀.h_S_)))))

/-- The priors averaged with the normalised exponentials. -/
def rUpd (pr : FVec F S32x128x512x64 .f32) (e : FVec F S32x128x512x1 .f32) : FVec F S32x128x1x64 .f32 :=
  bR3_R31 Facts₀.bcast_S32x128x64_S32x128x1x64_0_1_3
    (Host.reduceAdd
      (mulf
        (bRI1_R4 Facts₀.bcast_S32x128x512x1_S32x128x512x64_0_1_2_3
          (Host.divf e
            (bR211_RI1 Facts₀.bcast_S32x128x1x1_S32x128x512x1_0_1_2_3
              (bR21_R211' Facts₀.bcast_S32x128x1_S32x128x1x1_0_1_3
                (Host.reduceAdd e (constant S_ .f32 0x00000000#32) Facts₀.reducesTo_S32x128x512x1_S32x128x1_d2 Facts₀.h_S_)))))
        pr)
      (constant S_ .f32 0x00000000#32) Facts₀.reducesTo_S32x128x512x64_S32x128x64_d2 Facts₀.h_S_)

/-- One round: scores, exponentials, average. -/
def rStep (pr : FVec F S32x128x512x64 .f32) (out : FVec F S32x128x1x64 .f32) : FVec F S32x128x1x64 .f32 :=
  rUpd pr (rExp (rLogit pr out))

/-- The whole result: three rounds from the mean, the unit axis dropped. -/
def rResult (x : FVec F S32x512x64 .f32) (w : FVec F S128x64x64 .f32) : FVec F S32x128x64 .f32 :=
  shapeCast S32x128x64
    (rStep (rPriors x w) (rStep (rPriors x w) (rStep (rPriors x w) (rMean (rPriors x w)))))
    Facts₀.shapeCasts_S32x128x1x64_S32x128x64

end Stages

/-! ## The stages at an index, at the ideal values -/

theorem hsqrt_apply {s : Shape} {φ : FTy} (a : FVec Ideal s φ) (i : s.Idx) : Host.sqrt a i = Ideal.sqrt (a i) := rfl
theorem hexp_apply {s : Shape} {φ : FTy} (a : FVec Ideal s φ) (i : s.Idx) : Host.exp a i = Ideal.exp (a i) := rfl

theorem rMean_apply (pr : FVec Ideal S32x128x512x64 .f32) (b : Fin 32) (o : Fin 128) (j : Fin 64) :
    rMean pr (ix4 b o (0 : Fin 1) j) = mean0 (fun i j => pr (ix4 b o i j)) j := by
  unfold rMean mean0
  simp only [hostDivf_apply, bR3_R31_apply, hsumI4_apply, bS_apply, constant_apply]
  rw [mean_div]

theorem rLogit_apply (pr : FVec Ideal S32x128x512x64 .f32) (out : FVec Ideal S32x128x1x64 .f32)
    (b : Fin 32) (o : Fin 128) (i : Fin 512) :
    rLogit pr out (ix4 b o i (0 : Fin 1))
      = logit (fun i j => pr (ix4 b o i j)) (fun j => out (ix4 b o (0 : Fin 1) j)) i := by
  unfold rLogit logit nrm
  simp only [bRI_RI1_apply, hsumJ4_apply, mulf_apply, bR31_R4_apply, hostDivf_apply, bR211_R31_apply, maximumf_apply, hsqrt_apply,
    bR21_R211_apply, hsumJ1_apply, bS_apply, constant_apply, Ideal.ofBits_zero_f32, zero_add]

theorem rExp_apply (lg : FVec Ideal S32x128x512x1 .f32) (b : Fin 32) (o : Fin 128) (i : Fin 512) :
    rExp lg (ix4 b o i (0 : Fin 1)) = wexp (fun i => lg (ix4 b o i (0 : Fin 1))) i := by
  unfold rExp wexp top
  rw [hexp_apply, subf_apply, bR211_RI1_apply, bR21_R211'_apply, maximumf_apply, bS_apply, constant_apply,
    hmaxI1_apply, constant_apply]

theorem rUpd_apply (pr : FVec Ideal S32x128x512x64 .f32) (e : FVec Ideal S32x128x512x1 .f32)
    (b : Fin 32) (o : Fin 128) (j : Fin 64) :
    rUpd pr e (ix4 b o (0 : Fin 1) j)
      = upd (fun i j => pr (ix4 b o i j)) (fun i => e (ix4 b o i (0 : Fin 1))) j := by
  unfold rUpd upd
  simp only [bR3_R31_apply, hsumI4_apply, mulf_apply, bRI1_R4_apply, hostDivf_apply, bR211_RI1_apply, bR21_R211'_apply, hsumI1_apply,
    constant_apply, Ideal.ofBits_zero_f32, zero_add]

theorem rStep_apply (pr : FVec Ideal S32x128x512x64 .f32) (out : FVec Ideal S32x128x1x64 .f32)
    (b : Fin 32) (o : Fin 128) (j : Fin 64) :
    rStep pr out (ix4 b o (0 : Fin 1) j)
      = step (fun i j => pr (ix4 b o i j)) (fun j => out (ix4 b o (0 : Fin 1) j)) j := by
  unfold rStep step
  simp only [rUpd_apply, rExp_apply, rLogit_apply]

/-- The result at `(b, o, j)` is the routing of that pair's priors, at `j`. -/
theorem rResult_apply (x : FVec Ideal S32x512x64 .f32) (w : FVec Ideal S128x64x64 .f32)
    (b : Fin 32) (o : Fin 128) (j : Fin 64) :
    rResult x w (ix3 b o j) = route (fun i j => rPriors x w (ix4 b o i j)) j := by
  unfold rResult route
  rw [cast_R31_R3]
  simp only [rStep_apply, rMean_apply]

/-! ## The priors: the input times the weights -/

/-- The priors at `(b, o, i, j)`: row `i` of batch `b`'s input against row `j` of out-capsule `o`'s weights,
    contracted over the input coordinate. -/
theorem rPriors_apply (x : FVec Ideal S32x512x64 .f32) (w : FVec Ideal S128x64x64 .f32)
    (b : Fin 32) (o : Fin 128) (i : Fin 512) (j : Fin 64) :
    rPriors x w (ix4 b o i j) = ∑ l : Fin 64, x (ix3 b i l) * w (ix3 o j l) := by
  unfold rPriors
  rw [tr_Rd_R4]
  refine (Ideal.dotGeneral_apply dot_S32x512x64_S128x64x64_S32x512x128x64_2_2_01_01_n_n none .single x w _).trans ?_
  refine (Equiv.sum_comp (contrEquiv1 dot_S32x512x64_S128x64x64_S32x512x128x64_2_2_01_01_n_n 64 rfl rfl).symm _).symm.trans ?_
  refine Finset.sum_congr rfl fun l _ => ?_
  refine congrArg₂ (· * ·) (congrArg x (funext fun a => Fin.ext ?_)) (congrArg w (funext fun a => Fin.ext ?_))
  · match a with
    | ⟨0, _⟩ => rfl
    | ⟨1, _⟩ => rfl
    | ⟨2, _⟩ =>
      exact (DotDims.lhsIdx_val_of_single _ rfl _ _).trans
        (contrEquiv1_symm_val dot_S32x512x64_S128x64x64_S32x512x128x64_2_2_01_01_n_n 64 rfl rfl l)
  · match a with
    | ⟨0, _⟩ => rfl
    | ⟨1, _⟩ => rfl
    | ⟨2, _⟩ =>
      exact (DotDims.rhsIdx_val_of_single _ rfl _ _).trans
        (contrEquiv1_symm_val dot_S32x512x64_S128x64x64_S32x512x128x64_2_2_01_01_n_n 64 rfl rfl l)

/-! ## The reference's result is the result function of the arguments -/

/-- Index by index the reference's result is the routing of the priors `∑ l, w (o, j, l) · x (b, i, l)`: the host's
    contraction multiplies the same two factors in the other order. -/
theorem rResult_eq_G (x : FVec Ideal S32x512x64 .f32) (w : FVec Ideal S128x64x64 .f32) :
    rResult x w = G x w := by
  funext y
  obtain ⟨b, o, j, rfl⟩ : ∃ (b : Fin 32) (o : Fin 128) (j : Fin 64), y = ix3 b o j := ⟨y 0, y 1, y 2, eq_ix3 y⟩
  rw [rResult_apply, G_ix3]
  unfold Gc
  congr 1
  funext i j'
  rw [rPriors_apply]
  exact Finset.sum_congr rfl fun l _ => mul_comm _ _

end Cert.ReferenceIdeal.Stage

end
-- ==== Proof.RResult.lean ====
/-
  The reference's generated run, read: its result term is the routing stages of `RStage.lean` composed, applied to the two
  arguments (`result_term`, by unfolding the run's named intermediate terms: each is one stage of an earlier one).
-/
import proofs.«169083_j18056042512757_2_alg».proof.Proof.Gen.ReferenceIdeal.Run
import proofs.«169083_j18056042512757_2_alg».proof.Proof.RStage

noncomputable section

namespace Cert.ReferenceIdeal.Stage

open Cert.ReferenceIdeal Cert.ReferenceIdeal.Value
open Idealize.ShloMosaic Idealize.ShloMosaic.StableHlo

variable [Facts]

section Named

variable {F : FTy → Type} [FloatOps F]

/-- The run's result term is `rResult` of the two arguments. -/
theorem result_term (V0 : Valuation τ sig (Elt F)) :
    (shapeCast S32x128x64
      (broadcastInDim S32x128x1x64 ![0, 1, 3] Facts₀.bcast_S32x128x64_S32x128x1x64_0_1_3
        (Host.reduceAdd
          (mulf
            (broadcastInDim S32x128x512x64 ![0, 1, 2, 3] Facts₀.bcast_S32x128x512x1_S32x128x512x64_0_1_2_3
              (Host.divf (res_main_v78 V0)
                (broadcastInDim S32x128x512x1 ![0, 1, 2, 3] Facts₀.bcast_S32x128x1x1_S32x128x512x1_0_1_2_3
                  (broadcastInDim S32x128x1x1 ![0, 1, 3] Facts₀.bcast_S32x128x1_S32x128x1x1_0_1_3
                    (Host.reduceAdd (res_main_v78 V0) (constant S_ .f32 0x00000000#32)
                      Facts₀.reducesTo_S32x128x512x1_S32x128x1_d2 Facts₀.h_S_)))))
            (res_main_v1 V0))
          (constant S_ .f32 0x00000000#32) Facts₀.reducesTo_S32x128x512x64_S32x128x64_d2 Facts₀.h_S_))
      Facts₀.shapeCasts_S32x128x1x64_S32x128x64 : FVec F S32x128x64 .f32)
      = rResult (V0 (Proc.devRef .tc main_arg0)) (V0 (Proc.devRef .tc main_arg1)) := rfl

end Named

end Cert.ReferenceIdeal.Stage

end
-- ==== Proof.lean ====
/-
  Capsule routing: the kernel and its reference compute one function of the input and the weights.

  For an input `x : [32, 512, 64]` and weights `w : [128, 64, 64]`, both programs form, for every batch `b` and out-capsule
  `o`, the priors `P i j = ∑ l, w (o, j, l) · x (b, i, l)` of the 512 in-capsules, and run three rounds of routing on them
  from their mean: normalise the current vector, score each in-capsule by its inner product with it, take the softmax of
  the scores over the in-capsules, and average the priors with those weights (`Proof/Spec.lean`: `route`, and `G`, the
  result array `[32, 128, 64]` as one function of the two arguments).

  The kernel does this one grid point at a time, for one batch and a tile of 64 out-capsules, with the priors laid out
  as (out-capsule, output coordinate, in-capsule); the reference does it for all pairs at once, laid out as (batch,
  out-capsule, in-capsule, output coordinate). At the ideal values the bf16 round trips are the identity, so the two
  differ only in layout, in the order of the two factors inside the contraction, and in the mean, which one takes as
  a product with `2⁻⁹` and the other as a quotient by `512`: equal on every extended real. No step needs the inputs
  to be finite.

  `Proof/KStage.lean` reads the kernel's payload at an index as `route` of the point's priors; `Proof/KValue.lean` reads
  the blocks through their windows and shows that the 64 written blocks tile the result array, which therefore ends
  at `G` of the arguments; `Proof/RStage.lean` reads the reference's run as `G` of the arguments. The frames of the two
  kernel programs are the generated frame runs, the reference's frame is its generated run with the result dropped,
  and the idealization rewrote nothing.
-/
import proofs.«169083_j18056042512757_2_alg».proof.Defs
import proofs.«169083_j18056042512757_2_alg».proof.Proof.Gen.Kernel
import proofs.«169083_j18056042512757_2_alg».proof.Proof.Gen.Kernel.Frame
import proofs.«169083_j18056042512757_2_alg».proof.Proof.Gen.KernelIdeal
import proofs.«169083_j18056042512757_2_alg».proof.Proof.Gen.KernelIdeal.Frame
import proofs.«169083_j18056042512757_2_alg».proof.Proof.Gen.ReferenceIdeal
import proofs.«169083_j18056042512757_2_alg».proof.Proof.Gen.ReferenceIdeal.Run
import proofs.«169083_j18056042512757_2_alg».proof.Proof.Gen.Pre_finite_inputs
import proofs.«169083_j18056042512757_2_alg».proof.Proof.KValue
import proofs.«169083_j18056042512757_2_alg».proof.Proof.RStage
import proofs.«169083_j18056042512757_2_alg».proof.Proof.RResult
import Idealize.ShloMosaic.Adequacy
import Idealize.ShloMosaic.Init

noncomputable section

namespace Cert.Proof

open Idealize.ShloMosaic Idealize.SL.Sem

/-- The word-level kernel runs and leaves its arguments unchanged: its generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array ends at `G` of its arguments (the 64 blocks, each the routing of its
    batch and out-capsule tile), and the reference's at the same `G` of arguments that agree with them. -/
theorem algebraic : Cert.algebraic_KernelIdeal_ReferenceIdeal := by
  intro m ρ m' ρ' _ hagree
  refine ⟨fun c => Cert.Routing.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Stage.result_term _).trans ?_
  rw [Cert.ReferenceIdeal.Stage.rResult_eq_G]
  show Cert.Routing.G
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
